-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S128 .f32) (main_arg6 : FVec F S128x32 .f32) (main_arg7 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg6
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x32 .f32) (main_arg7 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 91
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S1x32, .f32⟩
  | .hbm, ⟨90, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S128x32, .f32⟩
  | .local _ .vmem, ⟨16, _⟩ => ⟨S1x32, .f32⟩
  | .local _ .vmem, ⟨17, _⟩ => ⟨S2000x32, .f32⟩
  | .local _ .vmem, ⟨18, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  bcast_S_S1x128 : S_.BroadcastsInDim S1x128 (![] : Fin 0 → Fin S1x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S50000x32.size a
  hwx2_4 : ∀ i : grid2.Coords, EltTy.bits .f32 = 32 ∨ (Rect.block (s := S50000x32) S2000x32.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S2000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x32 : Shape := ⟨2, ![50000, 32]⟩
abbrev S1x32 : Shape := ⟨2, ![1, 32]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x32, .f32⟩
  | 7 => ⟨S32, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S50000x128, .f32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S_, .f32⟩
  | 85 => ⟨S50000, .f32⟩
  | 86 => ⟨S50000, .f32⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x32, .f32⟩
  | 6 => ⟨S1x32, .f32⟩
  | 7 => ⟨S50000x32, .f32⟩
  | 8 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_c_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_19 : Ref sig .tc := ⟨.hbm, 111, rfl⟩
abbrev main_v76 : Ref sig .tc := ⟨.hbm, 112, rfl⟩
abbrev main_v77 : Ref sig .tc := ⟨.hbm, 113, rfl⟩
abbrev main_c_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x32_S50000x32_1_0_0_1_n_n_wf : DotDims.WF S50000x128 S128x32 S50000x32 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The kernel program's run with its result named.

  The program is three pipelined products among stretches of host operations. Running it from any memory, every fair
  execution ends, and the result buffer then holds what the last boundary of the run holds there: the contents of the
  third product's output array after all of its blocks are written back. The argument arrays end as they started.
-/
import proofs.«149653_j22290880266463_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution of the program ends, with the result buffer at the last boundary's contents and the
    arguments unchanged. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.Stretches.lean ====
/-
  The host operations between the products, each stretch read at the buffers the next product needs.

  From the edge list the program builds the two endpoint lists (each row of the edge list followed by 0 … N-1, the
  self loops), the degree normalisation of every edge, and, around each product, the aggregation of an [N, 128]
  array: gather its rows at the sources, scale each by its edge's normalisation, and add them up at the targets. The
  two shared chains are named once (`normOf`, `aggOf`) and never opened: no statement below depends on what a gather
  or a scatter does, only on both programs applying the same ones to the same arrays.
-/
import proofs.«149653_j22290880266463_1_alg».proof.Proof.Gen.KernelIdeal.Launch
import Idealize.ShloMosaic.Lib.StableHlo.Run
import Idealize.ShloMosaic.PureOps.Ideal

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

/-! ## The shared chains -/

/-- A list of node numbers with the negative ones moved up by N (python's indexing from the end). -/
def wrap (s : (⟨S850000, .i32⟩ : BufTy).Contents (Elt Ideal)) : (⟨S850000, .i32⟩ : BufTy).Contents (Elt Ideal) :=
  select (cmpi .slt s (broadcastInDim S850000 ![] bcast_S_S850000 (constantI S_ 32 0#32)))
    (addi s (broadcastInDim S850000 ![] bcast_S_S850000 (constantI S_ 32 50000#32))) s

/-- A per-node value looked up at each entry of a list of node numbers. -/
def pick (tbl : FVec Ideal S50000 .f32) (s : (⟨S850000, .i32⟩ : BufTy).Contents (Elt Ideal)) : FVec Ideal S850000 .f32 :=
  Host.gather gather_S50000_S850000x1_S850000_n_0_n_n_0_1_1 tbl (broadcastInDim S850000x1 ![0] bcast_S850000_S850000x1_0 (wrap s))

/-- The degree normalisation of every edge: the per-node factor at its source times the one at its target. -/
def normOf (dis : FVec Ideal S50000 .f32) (src dst : (⟨S850000, .i32⟩ : BufTy).Contents (Elt Ideal)) : FVec Ideal S850000 .f32 :=
  mulf (F := Ideal) (pick dis src) (pick dis dst)

/-- The aggregation of an [N, 128] array over the edges: its rows at the sources, each scaled by its edge's
    normalisation, added up at the targets. -/
def aggOf (h : FVec Ideal S50000x128 .f32) (src dst : (⟨S850000, .i32⟩ : BufTy).Contents (Elt Ideal))
    (nrm : FVec Ideal S850000 .f32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (F := Ideal) (Host.gather gather_S50000x128_S850000x1_S850000x128_1_0_n_n_0_1_1128 h
        (broadcastInDim S850000x1 ![0] bcast_S850000_S850000x1_0 (wrap src)))
      (broadcastInDim S850000x128 ![0, 1] bcast_S850000x1_S850000x128_0_1
        (broadcastInDim S850000x1 ![0] bcast_S850000_S850000x1_0 nrm)))

variable (W : Valuation τ sig (Elt Ideal))

/-! ## The stretch before the first product, in its three parts -/

/-- The sources: row 0 of the edge list, then the self loops. -/
def srcOf (e : (⟨S2x800000, .i32⟩ : BufTy).Contents (Elt Ideal)) : (⟨S850000, .i32⟩ : BufTy).Contents (Elt Ideal) :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0

/-- The targets: row 1 of the edge list, then the self loops. -/
def dstOf (e : (⟨S2x800000, .i32⟩ : BufTy).Contents (Elt Ideal)) : (⟨S850000, .i32⟩ : BufTy).Contents (Elt Ideal) :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

/-- The in-degree of every node, counting its self loop. -/
def degOf (dst : (⟨S850000, .i32⟩ : BufTy).Contents (Elt Ideal)) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 dst)
    (broadcastInDim S850000 ![] bcast_S_S850000 (constant (F := Ideal) S_ .f32 0x3F800000#32))

theorem part0_src : after (hostOps0 (F := Ideal)) W (Proc.devRef .tc main_v3) = srcOf (W (Proc.devRef .tc main_arg1)) := by
  after_results <;> rfl

theorem part0_dst : after (hostOps0 (F := Ideal)) W (Proc.devRef .tc main_v6) = dstOf (W (Proc.devRef .tc main_arg1)) := by
  after_results <;> rfl

theorem part0_pos : after (hostOps0 (F := Ideal)) W (Proc.devRef .tc main_v12)
    = cmpf (F := Ideal) .ogt (degOf (dstOf (W (Proc.devRef .tc main_arg1)))) (broadcastInDim S50000 ![] bcast_S_S50000 (constant (F := Ideal) S_ .f32 0x00000000#32)) := by
  after_results <;> rfl

theorem part0_rsqrt : after (hostOps0 (F := Ideal)) W (Proc.devRef .tc main_v15)
    = Host.rsqrt (F := Ideal) (maximumf (F := Ideal) (degOf (dstOf (W (Proc.devRef .tc main_arg1)))) (broadcastInDim S50000 ![] bcast_S_S50000 (constant (F := Ideal) S_ .f32 0x3F800000#32))) := by
  after_results <;> rfl

theorem part0_zero : after (hostOps0 (F := Ideal)) W (Proc.devRef .tc main_cst_3) = constant (F := Ideal) S_ .f32 0x00000000#32 := by
  after_results <;> rfl

theorem part1_dis : after (hostOps0_1 (F := Ideal)) W (Proc.devRef .tc main_v16)
    = select (W (Proc.devRef .tc main_v12)) (W (Proc.devRef .tc main_v15))
        (broadcastInDim S50000 ![] bcast_S_S50000 (W (Proc.devRef .tc main_cst_3))) := by
  after_results <;> rfl

set_option maxHeartbeats 4000000 in
theorem part2_norm : after (hostOps0_2 (F := Ideal)) W (Proc.devRef .tc main_v31)
    = normOf (W (Proc.devRef .tc main_v16)) (W (Proc.devRef .tc main_v3)) (W (Proc.devRef .tc main_v6)) := by
  after_results_simp <;> rfl

/-! ## The stretch between the first and the second product -/

set_option maxHeartbeats 4000000 in
theorem mid1_agg : after (hostOps1 (F := Ideal)) W (Proc.devRef .tc main_v45)
    = aggOf (W (Proc.devRef .tc main_v32)) (W (Proc.devRef .tc main_v3)) (W (Proc.devRef .tc main_v6)) (W (Proc.devRef .tc main_v31)) := by
  after_results_simp <;> rfl

theorem mid1_bias : after (hostOps1 (F := Ideal)) W (Proc.devRef .tc main_v46)
    = shapeCast _ (W (Proc.devRef .tc main_arg3)) shapeCasts_S128_S1x128 := by
  after_results <;> rfl

theorem mid1_zero : after (hostOps1 (F := Ideal)) W (Proc.devRef .tc main_v47)
    = broadcastInDim S1x128 ![] bcast_S_S1x128 (constant (F := Ideal) S_ .f32 0x00000000#32) := by
  after_results <;> rfl

/-! ## The stretch between the second and the third product -/

set_option maxHeartbeats 4000000 in
theorem mid2_agg : after (hostOps2 (F := Ideal)) W (Proc.devRef .tc main_v61)
    = aggOf (W (Proc.devRef .tc main_v48)) (W (Proc.devRef .tc main_v3)) (W (Proc.devRef .tc main_v6)) (W (Proc.devRef .tc main_v31)) := by
  after_results_simp <;> rfl

theorem mid2_bias : after (hostOps2 (F := Ideal)) W (Proc.devRef .tc main_v62)
    = shapeCast _ (W (Proc.devRef .tc main_arg5)) shapeCasts_S128_S1x128 := by
  after_results <;> rfl

theorem mid2_out_bias : after (hostOps2 (F := Ideal)) W (Proc.devRef .tc main_v63)
    = shapeCast _ (W (Proc.devRef .tc main_arg7)) shapeCasts_S32_S1x32 := by
  after_results <;> rfl

end Cert.KernelIdeal.Stretches

end
-- ==== Proof.Keeps.lean ====
/-
  What each stretch of host operations leaves alone.

  Every host operation writes one buffer of its own. A buffer outside the list a stretch writes holds after the stretch
  what it held before: the arguments throughout, and the endpoint lists and the edges' normalisation after the stretch
  that computed them.
-/
import proofs.«149653_j22290880266463_1_alg».proof.Proof.Gen.KernelIdeal.Launch
import Idealize.ShloMosaic.Lib.StableHlo.Run

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-- The buffers the first part of the first stretch writes. -/
def written0 : List (Ref sig .tc) :=
  [main_v0, main_v1, main_v2, main_v3, main_v4, main_v5, main_v6, main_cst, main_v7, main_cst_0, main_v8, main_v9, main_v10,
   main_cst_1, main_v11, main_v12, main_cst_2, main_v13, main_v14, main_v15, main_cst_3]
/-- The buffers its second part (the selection of the per-node factor) writes. -/
def written0_1 : List (Ref sig .tc) := [main_call0_v0, main_call0_v1, main_v16]
/-- The buffers its third part writes. -/
def written0_2 : List (Ref sig .tc) :=
  [main_c, main_v17, main_v18, main_c_4, main_v19, main_v20, main_v21, main_v22, main_v23, main_c_5, main_v24, main_v25, main_c_6,
   main_v26, main_v27, main_v28, main_v29, main_v30, main_v31]
/-- The buffers the stretch between the first and the second product writes. -/
def written1 : List (Ref sig .tc) :=
  [main_c_7, main_v33, main_v34, main_c_8, main_v35, main_v36, main_v37, main_v38, main_v39, main_v40, main_v41, main_v42, main_cst_9,
   main_v43, main_v44, main_v45, main_v46, main_cst_10, main_v47]
/-- The buffers the stretch between the second and the third product writes. -/
def written2 : List (Ref sig .tc) :=
  [main_c_11, main_v49, main_v50, main_c_12, main_v51, main_v52, main_v53, main_v54, main_v55, main_v56, main_v57, main_v58, main_cst_13,
   main_v59, main_v60, main_v61, main_v62, main_v63]

theorem written0_sub : (hostOps0 (F := F)).Forall fun op => op.writes ⊆ (written0.map (Proc.devRef (τ := τ) .tc)).toFinset := by
  simp only [hostOps0, List.Forall, nullary_writes, unary_writes, binary_writes, ternary_writes, reshape_writes]
  repeat' apply And.intro
  all_goals (rw [Finset.singleton_subset_iff]; exact List.mem_toFinset.mpr (List.mem_map.mpr ⟨_, by decide, rfl⟩))

theorem written0_1_sub : (hostOps0_1 (F := F)).Forall fun op => op.writes ⊆ (written0_1.map (Proc.devRef (τ := τ) .tc)).toFinset := by
  simp only [hostOps0_1, List.Forall, nullary_writes, unary_writes, binary_writes, ternary_writes, reshape_writes]
  repeat' apply And.intro
  all_goals (rw [Finset.singleton_subset_iff]; exact List.mem_toFinset.mpr (List.mem_map.mpr ⟨_, by decide, rfl⟩))

theorem written0_2_sub : (hostOps0_2 (F := F)).Forall fun op => op.writes ⊆ (written0_2.map (Proc.devRef (τ := τ) .tc)).toFinset := by
  simp only [hostOps0_2, List.Forall, nullary_writes, unary_writes, binary_writes, ternary_writes, reshape_writes]
  repeat' apply And.intro
  all_goals (rw [Finset.singleton_subset_iff]; exact List.mem_toFinset.mpr (List.mem_map.mpr ⟨_, by decide, rfl⟩))

theorem written1_sub : (hostOps1 (F := F)).Forall fun op => op.writes ⊆ (written1.map (Proc.devRef (τ := τ) .tc)).toFinset := by
  simp only [hostOps1, List.Forall, nullary_writes, unary_writes, binary_writes, ternary_writes, reshape_writes]
  repeat' apply And.intro
  all_goals (rw [Finset.singleton_subset_iff]; exact List.mem_toFinset.mpr (List.mem_map.mpr ⟨_, by decide, rfl⟩))

theorem written2_sub : (hostOps2 (F := F)).Forall fun op => op.writes ⊆ (written2.map (Proc.devRef (τ := τ) .tc)).toFinset := by
  simp only [hostOps2, List.Forall, nullary_writes, unary_writes, binary_writes, ternary_writes, reshape_writes]
  repeat' apply And.intro
  all_goals (rw [Finset.singleton_subset_iff]; exact List.mem_toFinset.mpr (List.mem_map.mpr ⟨_, by decide, rfl⟩))

theorem keeps0 {r : Ref sig .tc} (hr : r ∉ written0) : after (hostOps0 (F := F)) W (Proc.devRef .tc r) = W (Proc.devRef .tc r) :=
  after_of_writes_sub _ W written0_sub hr
theorem keeps0_1 {r : Ref sig .tc} (hr : r ∉ written0_1) : after (hostOps0_1 (F := F)) W (Proc.devRef .tc r) = W (Proc.devRef .tc r) :=
  after_of_writes_sub _ W written0_1_sub hr
theorem keeps0_2 {r : Ref sig .tc} (hr : r ∉ written0_2) : after (hostOps0_2 (F := F)) W (Proc.devRef .tc r) = W (Proc.devRef .tc r) :=
  after_of_writes_sub _ W written0_2_sub hr
theorem keeps1 {r : Ref sig .tc} (hr : r ∉ written1) : after (hostOps1 (F := F)) W (Proc.devRef .tc r) = W (Proc.devRef .tc r) :=
  after_of_writes_sub _ W written1_sub hr
theorem keeps2 {r : Ref sig .tc} (hr : r ∉ written2) : after (hostOps2 (F := F)) W (Proc.devRef .tc r) = W (Proc.devRef .tc r) :=
  after_of_writes_sub _ W written2_sub hr

end Cert.KernelIdeal.Stretches

end
-- ==== Proof.Spec.lean ====
/-
  What the program computes, as one function of its eight arguments, on the extended reals.

  A two-layer graph convolution and a linear classifier. With src, dst the edge endpoints (self loops appended) and nrm
  the degree normalisation of the edges:
    h1  = x * W1                                   (rowsTimes)
    h2  = relu (agg h1 + b1) * W2 + 0              (layer, after the aggregation aggOf)
    out = relu (agg h2 + b2) * Wc + bc             (layer)
  The aggregation and the normalisation are the shared chains of the host operations, kept closed; the products and
  the layers are stated entry by entry.
-/
import proofs.«149653_j22290880266463_1_alg».proof.Proof.Stretches
import Idealize.ShloMosaic.Lib.ValueIdx

noncomputable section

open scoped BigOperators

namespace Cert.KernelIdeal.Spec

open Idealize.ShloMosaic Idealize.ShloMosaic.ValueIdx Cert.KernelIdeal Cert.KernelIdeal.Gen Cert.KernelIdeal.Stretches

/-- The product of a [50000, 128] array with a [128, n] matrix, entry by entry. -/
def rowsTimes {n : Nat} (x : (⟨2, ![50000, 128]⟩ : Shape).Idx → EReal) (w : (⟨2, ![128, n]⟩ : Shape).Idx → EReal) :
    (⟨2, ![50000, n]⟩ : Shape).Idx → EReal :=
  fun i => ∑ k : Fin 128, x (ix2 (⟨(i 0).val, (i 0).isLt⟩ : Fin 50000) k) * w (ix2 k (⟨(i 1).val, (i 1).isLt⟩ : Fin n))

/-- One layer after its aggregation: add the bias row, clamp below at zero, multiply by the weights, add the row d. -/
def layer {n : Nat} (a : (⟨2, ![50000, 128]⟩ : Shape).Idx → EReal) (bias : (⟨2, ![1, 128]⟩ : Shape).Idx → EReal)
    (w : (⟨2, ![128, n]⟩ : Shape).Idx → EReal) (d : (⟨2, ![1, n]⟩ : Shape).Idx → EReal) :
    (⟨2, ![50000, n]⟩ : Shape).Idx → EReal :=
  fun i => (∑ k : Fin 128, max (a (ix2 (⟨(i 0).val, (i 0).isLt⟩ : Fin 50000) k) + bias (ix2 (0 : Fin 1) k))
        (Ideal.ofBits .f32 0x00000000#32) * w (ix2 k (⟨(i 1).val, (i 1).isLt⟩ : Fin n)))
    + d (ix2 (0 : Fin 1) (⟨(i 1).val, (i 1).isLt⟩ : Fin n))

/-- The per-node factor: 1 / sqrt (max degree 1) where the degree is positive, zero elsewhere. -/
def disOf (dst : (⟨S850000, .i32⟩ : BufTy).Contents (Elt Ideal)) : FVec Ideal S50000 .f32 :=
  select (cmpf (F := Ideal) .ogt (degOf dst) (broadcastInDim S50000 ![] bcast_S_S50000 (constant (F := Ideal) S_ .f32 0x00000000#32)))
    (Host.rsqrt (F := Ideal) (maximumf (F := Ideal) (degOf dst) (broadcastInDim S50000 ![] bcast_S_S50000 (constant (F := Ideal) S_ .f32 0x3F800000#32))))
    (broadcastInDim S50000 ![] bcast_S_S50000 (constant (F := Ideal) S_ .f32 0x00000000#32))

/-- The edges' normalisation from the edge list. -/
def nrmOf (e : (⟨S2x800000, .i32⟩ : BufTy).Contents (Elt Ideal)) : FVec Ideal S850000 .f32 :=
  normOf (disOf (dstOf e)) (srcOf e) (dstOf e)

/-- The first layer: the aggregated first product, biased, clamped, multiplied by the second weights; the row the
    program adds after it is zero. -/
def firstLayer (x : FVec Ideal S50000x128 .f32) (e : (⟨S2x800000, .i32⟩ : BufTy).Contents (Elt Ideal))
    (w1 : FVec Ideal S128x128 .f32) (b1 : FVec Ideal S128 .f32) (w2 : FVec Ideal S128x128 .f32) : FVec Ideal S50000x128 .f32 :=
  layer (n := 128) (aggOf (rowsTimes (n := 128) x w1) (srcOf e) (dstOf e) (nrmOf e))
    (shapeCast S1x128 b1 shapeCasts_S128_S1x128) w2
    (broadcastInDim S1x128 ![] bcast_S_S1x128 (constant (F := Ideal) S_ .f32 0x00000000#32))

/-- The whole network: the second layer over the aggregated first, with the classifier's weights and bias. -/
def gcn (x : FVec Ideal S50000x128 .f32) (e : (⟨S2x800000, .i32⟩ : BufTy).Contents (Elt Ideal))
    (w1 : FVec Ideal S128x128 .f32) (b1 : FVec Ideal S128 .f32) (w2 : FVec Ideal S128x128 .f32) (b2 : FVec Ideal S128 .f32)
    (wc : FVec Ideal S128x32 .f32) (bc : FVec Ideal S32 .f32) : FVec Ideal S50000x32 .f32 :=
  layer (n := 32) (aggOf (firstLayer x e w1 b1 w2) (srcOf e) (dstOf e) (nrmOf e))
    (shapeCast S1x128 b2 shapeCasts_S128_S1x128) wc (shapeCast S1x32 bc shapeCasts_S32_S1x32)

end Cert.KernelIdeal.Spec

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.Payloads.lean ====
/-
  The three kernel bodies read at an entry of their output block, on the extended reals.

  Body 0 stores the product of its row block with the weight matrix: entry (p, q) is the sum over k of
  x(p, k) * w(k, q). Bodies 1 and 2 add a bias row to the row block, clamp below at zero, multiply by the weight
  matrix and add a second row: entry (p, q) is (sum over k of max (x(p, k) + b(0, k)) 0 * w(k, q)) + d(0, q).
  Rounding to bf16 on the way into the product is the identity on the extended reals.
-/
import proofs.«149653_j22290880266463_1_alg».proof.Proof.Gen.KernelIdeal.Skeleton
import proofs.«149653_j22290880266463_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.Blocks

open Idealize.ShloMosaic Idealize.ShloMosaic.ValueIdx Cert.KernelIdeal Cert.KernelIdeal.Gen

/-- Body 0 at entry (p, q): the row of the block against the column of the weights. -/
theorem pay0_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  exact Cert.LibMatmulPlain.matmul_zero_apply dot_S2000x128_S128x128_S2000x128_1_0_0_1_n_n rfl rfl rfl rfl rfl rfl none
    (truncf .bf16 x0 bitsLt_bf16_f32) (truncf .bf16 x1 bitsLt_bf16_f32) p q

/-- The clamped, biased row block at an entry. -/
theorem relu_bias_apply {a b : Nat} (x : FVec Ideal ⟨2, ![a, b]⟩ .f32) (bias : FVec Ideal ⟨2, ![1, b]⟩ .f32)
    (hc : (⟨2, ![a, b]⟩ : Shape).ShapeCasts ⟨2, ![a, b]⟩) (hc' : (⟨2, ![1, b]⟩ : Shape).ShapeCasts ⟨2, ![1, b]⟩)
    (hb : (⟨2, ![1, b]⟩ : Shape).Broadcasts ⟨2, ![a, b]⟩) (p : Fin a) (k : Fin b) :
    maximumf (addf (shapeCast ⟨2, ![a, b]⟩ x hc) (broadcastTo ⟨2, ![a, b]⟩ (shapeCast ⟨2, ![1, b]⟩ bias hc') hb))
        (broadcast ⟨2, ![a, b]⟩ (Scalar.ofBits (F := Ideal) .f32 0x00000000#32)) (ix2 p k)
      = max (x (ix2 p k) + bias (ix2 (0 : Fin 1) k)) (Ideal.ofBits .f32 0x00000000#32) := by
  rw [maximumf_apply, addf_apply, shapeCast_self, shapeCast_self, broadcastTo_1b_ab_apply, broadcast_apply]
  rfl

/-- Body 1 at entry (p, q). -/
theorem pay1_apply (x0 : Vec Ideal S2000x128 .f32) (x1 : Vec Ideal S1x128 .f32) (x2 : Vec Ideal S128x128 .f32)
    (x3 : Vec Ideal S1x128 .f32) (p : Fin 2000) (q : Fin 128) :
    k1_pay1 (F := Ideal) x0 x1 x2 x3 (ix2 p q)
      = (∑ k : Fin 128, max (x0 (ix2 p k) + x1 (ix2 (0 : Fin 1) k)) (Ideal.ofBits .f32 0x00000000#32) * x2 (ix2 k q))
        + x3 (ix2 (0 : Fin 1) q) := by
  unfold k1_pay1
  refine (addf_apply _ _ _).trans ?_
  refine congr (congrArg HAdd.hAdd ?_) ?_
  · refine (Cert.LibMatmulPlain.matmul_zero_apply dot_S2000x128_S128x128_S2000x128_1_0_0_1_n_n rfl rfl rfl rfl rfl rfl none
      _ (truncf .bf16 x2 bitsLt_bf16_f32) p q).trans ?_
    refine Finset.sum_congr rfl fun k _ => ?_
    refine congrArg (· * x2 (ix2 k q)) ?_
    exact relu_bias_apply x0 x1 _ _ _ p k
  · rw [shapeCast_self]
    exact broadcastTo_1b_ab_apply _ _ p q

/-- Body 2 at entry (p, q). -/
theorem pay2_apply (x0 : Vec Ideal S2000x128 .f32) (x1 : Vec Ideal S1x128 .f32) (x2 : Vec Ideal S128x32 .f32)
    (x3 : Vec Ideal S1x32 .f32) (p : Fin 2000) (q : Fin 32) :
    k2_pay1 (F := Ideal) x0 x1 x2 x3 (ix2 p q)
      = (∑ k : Fin 128, max (x0 (ix2 p k) + x1 (ix2 (0 : Fin 1) k)) (Ideal.ofBits .f32 0x00000000#32) * x2 (ix2 k q))
        + x3 (ix2 (0 : Fin 1) q) := by
  unfold k2_pay1
  refine (addf_apply _ _ _).trans ?_
  refine congr (congrArg HAdd.hAdd ?_) ?_
  · refine (Cert.LibMatmulPlain.matmul_zero_apply dot_S2000x128_S128x32_S2000x32_1_0_0_1_n_n rfl rfl rfl rfl rfl rfl none
      _ (truncf .bf16 x2 bitsLt_bf16_f32) p q).trans ?_
    refine Finset.sum_congr rfl fun k _ => ?_
    refine congrArg (· * x2 (ix2 k q)) ?_
    exact relu_bias_apply x0 x1 _ _ _ p k
  · rw [shapeCast_self]
    exact broadcastTo_1b_ab_apply _ _ p q

end Cert.KernelIdeal.Blocks

end
-- ==== Proof.Region0.lean ====
/-
  The first product's output array.

  The rows of x are cut into 25 blocks of 2000; grid point t multiplies block t by the whole weight matrix and writes
  the product back as block t of the output. Row r lies in block r / 2000, so the blocks cover the output, and the
  output array ends holding the product of the whole arrays: entry (r, q) is the sum over k of x(r, k) * w(k, q).
-/
import proofs.«149653_j22290880266463_1_alg».proof.Proof.Gen.KernelIdeal.Frame
import proofs.«149653_j22290880266463_1_alg».proof.Proof.Payloads
import proofs.«149653_j22290880266463_1_alg».proof.Proof.Spec
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat Cfg Window cellOf)
open Cert.KernelIdeal Cert.KernelIdeal.Gen Cert.KernelIdeal.Spec

/-- Both offsets of a whole-buffer access are zero. -/
theorem hz2 : (![0, 0] : Fin 2 → Nat) = fun _ => 0 := funext fun a => by fin_cases a <;> rfl

variable (V : (c : Dev nD) → (b : Ref sig .tc) → Buf (Elt Ideal) ((c : Thread nD τ).loc b))

/-- The index maps over the grid: the row block of x and of the output is the point's number, every other block
    index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed0 (c : Dev nD) (t : Fin cfg0.N) :
    (dat0 (F := Ideal) V c).flushed 2 t
      = ((cfg0.win 2).blk t).view.read (Elt Ideal) (rowsTimes (n := 128) (V c main_arg0) (V c main_arg2)) := by
  show (cfg0.win 2).cut (grid0.coords t) ((dat0 (F := Ideal) V c).after 2 t) = _
  rw [after0_2]
  unfold out0_2
  rw [View.canon_unit_zero hz2]
  simp only [View.ld_unit_zero (S := S2000x128) hz2, View.ld_unit_zero (S := S128x128) hz2]
  funext j
  obtain ⟨p, q, rfl⟩ : ∃ (p : Fin 2000) (q : Fin 128), j = ix2 p q := ⟨j 0, j 1, eq_ix2 j⟩
  refine (pay0_apply (iblk0 V c 0 t) (iblk0 V c 1 t) p q).trans ?_
  obtain ⟨e0, e1, e2, e3, e4, e5⟩ := idx_facts0 t
  show _ = rowsTimes (n := 128) (V c main_arg0) (V c main_arg2) (((cfg0.win 2).blk t).view.emb (ix2 p q))
  unfold rowsTimes
  refine Finset.sum_congr rfl fun k _ => ?_
  refine congr (congrArg HMul.hMul ?_) ?_
  · show V c main_arg0 (((cfg0.win 0).blk t).view.emb (ix2 p k)) = V c main_arg0 _
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * k.val = k.val
      omega
  · show V c main_arg2 (((cfg0.win 1).blk t).view.emb (ix2 k q)) = V c main_arg2 _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the output is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v32).slice (win0_2.rect t)).set ↔ _
  rw [View.set_slice_whole, Rect.mem_set_unit]
  exact Iff.rfl

/-- Row r is in the block of point r / 2000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨e0, e1, e2, e3, e4, e5⟩ := idx_facts0 ⟨(i 0).val / 2000, ht⟩
  refine ⟨⟨(i 0).val / 2000, ht⟩, flush0_2 _, ?_⟩
  rw [mem_blk0]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]; show (i 0).val / 2000 * 2000 ≤ (i 0).val ∧ (i 0).val < (i 0).val / 2000 * 2000 + 2000
    omega
  | ⟨1, _⟩ =>
    show win0_2.index ⟨(i 0).val / 2000, ht⟩ (1 : Fin 2) * 128 ≤ (i 1).val
      ∧ (i 1).val < win0_2.index ⟨(i 0).val / 2000, ht⟩ (1 : Fin 2) * 128 + 128
    rw [e5]; omega

/-- The output array of the first product, after the run of its region from the contents V. -/
theorem region0_array (c : Dev nD) :
    (dat0 (F := Ideal) V c).arrAt 2 cfg0.N = rowsTimes (n := 128) (V c main_arg0) (V c main_arg2) :=
  (dat0 (F := Ideal) V c).arrAt_eq_of_cover 2 _ (fun t _ => flushed0 V c t) (cover0)

end Cert.KernelIdeal.Blocks

end
-- ==== Proof.Region1.lean ====
/-
  The second product's output array.

  The rows of the aggregated array are cut into 25 blocks of 2000; grid point t adds the bias row to block t, clamps
  below at zero, multiplies by the whole weight matrix, adds the second row, and writes the result back as block t of
  the output. The blocks cover the output, which ends holding the layer of the whole arrays.
-/
import proofs.«149653_j22290880266463_1_alg».proof.Proof.Gen.KernelIdeal.Frame
import proofs.«149653_j22290880266463_1_alg».proof.Proof.Payloads
import proofs.«149653_j22290880266463_1_alg».proof.Proof.Spec
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat Cfg Window cellOf)
open Cert.KernelIdeal Cert.KernelIdeal.Gen Cert.KernelIdeal.Spec

/-- Both offsets of a whole-buffer access are zero. -/
theorem hz2_1 : (![0, 0] : Fin 2 → Nat) = fun _ => 0 := funext fun a => by fin_cases a <;> rfl

variable (V : (c : Dev nD) → (b : Ref sig .tc) → Buf (Elt Ideal) ((c : Thread nD τ).loc b))

/-- The index maps over the grid: the row block of the aggregated array and of the output is the point's number,
    every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer of the arrays as the region finds them. -/
theorem flushed1 (c : Dev nD) (t : Fin cfg1.N) :
    (dat1 (F := Ideal) V c).flushed 4 t
      = ((cfg1.win 4).blk t).view.read (Elt Ideal) (layer (n := 128) (V c main_v45) (V c main_v46) (V c main_arg4) (V c main_v47)) := by
  show (cfg1.win 4).cut (grid1.coords t) ((dat1 (F := Ideal) V c).after 4 t) = _
  rw [after1_4]
  unfold out1_4
  rw [View.canon_unit_zero hz2_1]
  simp only [View.ld_unit_zero (S := S2000x128) hz2_1, View.ld_unit_zero (S := S1x128) hz2_1,
    View.ld_unit_zero (S := S128x128) hz2_1, View.ld_unit_zero (S := S1x128) hz2_1]
  funext j
  obtain ⟨p, q, rfl⟩ : ∃ (p : Fin 2000) (q : Fin 128), j = ix2 p q := ⟨j 0, j 1, eq_ix2 j⟩
  refine (pay1_apply (iblk1 V c 0 t) (iblk1 V c 1 t) (iblk1 V c 2 t) (iblk1 V c 3 t) p q).trans ?_
  obtain ⟨e0, e1, e2, e3, e4, e5, e6, e7, e8, e9⟩ := idx_facts1 t
  show _ = layer (n := 128) (V c main_v45) (V c main_v46) (V c main_arg4) (V c main_v47) (((cfg1.win 4).blk t).view.emb (ix2 p q))
  unfold layer
  refine congr (congrArg HAdd.hAdd (Finset.sum_congr rfl fun k _ => ?_)) ?_
  · refine congr (congrArg HMul.hMul (congrArg (fun z => max z (Ideal.ofBits .f32 0x00000000#32)) (congr (congrArg HAdd.hAdd ?_) ?_))) ?_
    · show V c main_v45 (((cfg1.win 0).blk t).view.emb (ix2 p k)) = V c main_v45 _
      refine congrArg (V c main_v45) (funext fun a => Fin.ext ?_)
      match a with
      | ⟨0, _⟩ =>
        show win1_0.index t (0 : Fin 2) * 2000 + 1 * p.val = win1_4.index t (0 : Fin 2) * 2000 + 1 * p.val
        omega
      | ⟨1, _⟩ =>
        show win1_0.index t (1 : Fin 2) * 128 + 1 * k.val = k.val
        omega
    · show V c main_v46 (((cfg1.win 1).blk t).view.emb (ix2 (0 : Fin 1) k)) = V c main_v46 _
      refine congrArg (V c main_v46) (funext fun a => Fin.ext ?_)
      match a with
      | ⟨0, _⟩ =>
        show win1_1.index t (0 : Fin 2) * 1 + 1 * (0 : Fin 1).val = (0 : Fin 1).val
        rw [e2]; rfl
      | ⟨1, _⟩ =>
        show win1_1.index t (1 : Fin 2) * 128 + 1 * k.val = k.val
        omega
    · show V c main_arg4 (((cfg1.win 2).blk t).view.emb (ix2 k q)) = V c main_arg4 _
      refine congrArg (V c main_arg4) (funext fun a => Fin.ext ?_)
      match a with
      | ⟨0, _⟩ =>
        show win1_2.index t (0 : Fin 2) * 128 + 1 * k.val = k.val
        omega
      | ⟨1, _⟩ =>
        show win1_2.index t (1 : Fin 2) * 128 + 1 * q.val = win1_4.index t (1 : Fin 2) * 128 + 1 * q.val
        omega
  · show V c main_v47 (((cfg1.win 3).blk t).view.emb (ix2 (0 : Fin 1) q)) = V c main_v47 _
    refine congrArg (V c main_v47) (funext fun a => Fin.ext ?_)
    match a with
    | ⟨0, _⟩ =>
      show win1_3.index t (0 : Fin 2) * 1 + 1 * (0 : Fin 1).val = (0 : Fin 1).val
      rw [e6]; rfl
    | ⟨1, _⟩ =>
      show win1_3.index t (1 : Fin 2) * 128 + 1 * q.val = win1_4.index t (1 : Fin 2) * 128 + 1 * q.val
      omega

/-- An index of the output is in point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v48).slice (win1_4.rect t)).set ↔ _
  rw [View.set_slice_whole, Rect.mem_set_unit]
  exact Iff.rfl

/-- Row r is in the block of point r / 2000. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨e0, e1, e2, e3, e4, e5, e6, e7, e8, e9⟩ := idx_facts1 ⟨(i 0).val / 2000, ht⟩
  refine ⟨⟨(i 0).val / 2000, ht⟩, flush1_4 _, ?_⟩
  rw [mem_blk1]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e8]; show (i 0).val / 2000 * 2000 ≤ (i 0).val ∧ (i 0).val < (i 0).val / 2000 * 2000 + 2000
    omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e9]; omega

/-- The output array of this product, after the run of its region from the contents V. -/
theorem region1_array (c : Dev nD) :
    (dat1 (F := Ideal) V c).arrAt 4 cfg1.N = layer (n := 128) (V c main_v45) (V c main_v46) (V c main_arg4) (V c main_v47) :=
  (dat1 (F := Ideal) V c).arrAt_eq_of_cover 4 _ (fun t _ => flushed1 V c t) (cover1)

end Cert.KernelIdeal.Blocks

end
-- ==== Proof.Region2.lean ====
/-
  The third product's output array: the classifier.

  As for the second product, with a [128, 32] weight matrix and a [1, 32] second row: grid point t adds the bias row
  to block t of the aggregated array, clamps below at zero, multiplies by the weights, adds the output bias row, and
  writes back block t of the [50000, 32] result. The blocks cover it.
-/
import proofs.«149653_j22290880266463_1_alg».proof.Proof.Gen.KernelIdeal.Frame
import proofs.«149653_j22290880266463_1_alg».proof.Proof.Payloads
import proofs.«149653_j22290880266463_1_alg».proof.Proof.Spec
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx
open Idealize.SL Idealize.SL.Sem
open Idealize.ShloMosaic.Pipeline (Dat Cfg Window cellOf)
open Cert.KernelIdeal Cert.KernelIdeal.Gen Cert.KernelIdeal.Spec

/-- Both offsets of a whole-buffer access are zero. -/
theorem hz2_2 : (![0, 0] : Fin 2 → Nat) = fun _ => 0 := funext fun a => by fin_cases a <;> rfl

variable (V : (c : Dev nD) → (b : Ref sig .tc) → Buf (Elt Ideal) ((c : Thread nD τ).loc b))

/-- The index maps over the grid: the row block of the aggregated array and of the output is the point's number,
    every other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the layer of the arrays as the region finds them. -/
theorem flushed2 (c : Dev nD) (t : Fin cfg2.N) :
    (dat2 (F := Ideal) V c).flushed 4 t
      = ((cfg2.win 4).blk t).view.read (Elt Ideal) (layer (n := 32) (V c main_v61) (V c main_v62) (V c main_arg6) (V c main_v63)) := by
  show (cfg2.win 4).cut (grid2.coords t) ((dat2 (F := Ideal) V c).after 4 t) = _
  rw [after2_4]
  unfold out2_4
  rw [View.canon_unit_zero hz2_2]
  simp only [View.ld_unit_zero (S := S2000x128) hz2_2, View.ld_unit_zero (S := S1x128) hz2_2,
    View.ld_unit_zero (S := S128x32) hz2_2, View.ld_unit_zero (S := S1x32) hz2_2]
  funext j
  obtain ⟨p, q, rfl⟩ : ∃ (p : Fin 2000) (q : Fin 32), j = ix2 p q := ⟨j 0, j 1, eq_ix2 j⟩
  refine (pay2_apply (iblk2 V c 0 t) (iblk2 V c 1 t) (iblk2 V c 2 t) (iblk2 V c 3 t) p q).trans ?_
  obtain ⟨e0, e1, e2, e3, e4, e5, e6, e7, e8, e9⟩ := idx_facts2 t
  show _ = layer (n := 32) (V c main_v61) (V c main_v62) (V c main_arg6) (V c main_v63) (((cfg2.win 4).blk t).view.emb (ix2 p q))
  unfold layer
  refine congr (congrArg HAdd.hAdd (Finset.sum_congr rfl fun k _ => ?_)) ?_
  · refine congr (congrArg HMul.hMul (congrArg (fun z => max z (Ideal.ofBits .f32 0x00000000#32)) (congr (congrArg HAdd.hAdd ?_) ?_))) ?_
    · show V c main_v61 (((cfg2.win 0).blk t).view.emb (ix2 p k)) = V c main_v61 _
      refine congrArg (V c main_v61) (funext fun a => Fin.ext ?_)
      match a with
      | ⟨0, _⟩ =>
        show win2_0.index t (0 : Fin 2) * 2000 + 1 * p.val = win2_4.index t (0 : Fin 2) * 2000 + 1 * p.val
        omega
      | ⟨1, _⟩ =>
        show win2_0.index t (1 : Fin 2) * 128 + 1 * k.val = k.val
        omega
    · show V c main_v62 (((cfg2.win 1).blk t).view.emb (ix2 (0 : Fin 1) k)) = V c main_v62 _
      refine congrArg (V c main_v62) (funext fun a => Fin.ext ?_)
      match a with
      | ⟨0, _⟩ =>
        show win2_1.index t (0 : Fin 2) * 1 + 1 * (0 : Fin 1).val = (0 : Fin 1).val
        rw [e2]; rfl
      | ⟨1, _⟩ =>
        show win2_1.index t (1 : Fin 2) * 128 + 1 * k.val = k.val
        omega
    · show V c main_arg6 (((cfg2.win 2).blk t).view.emb (ix2 k q)) = V c main_arg6 _
      refine congrArg (V c main_arg6) (funext fun a => Fin.ext ?_)
      match a with
      | ⟨0, _⟩ =>
        show win2_2.index t (0 : Fin 2) * 128 + 1 * k.val = k.val
        omega
      | ⟨1, _⟩ =>
        show win2_2.index t (1 : Fin 2) * 32 + 1 * q.val = win2_4.index t (1 : Fin 2) * 32 + 1 * q.val
        omega
  · show V c main_v63 (((cfg2.win 3).blk t).view.emb (ix2 (0 : Fin 1) q)) = V c main_v63 _
    refine congrArg (V c main_v63) (funext fun a => Fin.ext ?_)
    match a with
    | ⟨0, _⟩ =>
      show win2_3.index t (0 : Fin 2) * 1 + 1 * (0 : Fin 1).val = (0 : Fin 1).val
      rw [e6]; rfl
    | ⟨1, _⟩ =>
      show win2_3.index t (1 : Fin 2) * 32 + 1 * q.val = win2_4.index t (1 : Fin 2) * 32 + 1 * q.val
      omega

/-- An index of the output is in point t's block iff each coordinate is in the block's range on its axis. -/
theorem mem_blk2 (t : Fin cfg2.N) (i : S50000x32.Idx) :
    i ∈ ((cfg2.win 4).blk t).view.set ↔ ∀ a : Fin 2, win2_4.index t a * S2000x32.size a ≤ (i a).val
      ∧ (i a).val < win2_4.index t a * S2000x32.size a + S2000x32.size a := by
  show i ∈ ((View.whole main_v64).slice (win2_4.rect t)).set ↔ _
  rw [View.set_slice_whole, Rect.mem_set_unit]
  exact Iff.rfl

/-- Row r is in the block of point r / 2000. -/
theorem cover2 (i : S50000x32.Idx) :
    ∃ t : Fin cfg2.N, (cfg2.win 4).flush t = true ∧ i ∈ ((cfg2.win 4).blk t).view.set := by
  have hi0 : (i 0).val < 50000 := (i 0).isLt
  have hi1 : (i 1).val < 32 := (i 1).isLt
  have hN : cfg2.N = 25 := N_2
  have ht : (i 0).val / 2000 < cfg2.N := by rw [hN]; omega
  obtain ⟨e0, e1, e2, e3, e4, e5, e6, e7, e8, e9⟩ := idx_facts2 ⟨(i 0).val / 2000, ht⟩
  refine ⟨⟨(i 0).val / 2000, ht⟩, flush2_4 _, ?_⟩
  rw [mem_blk2]
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    rw [e8]; show (i 0).val / 2000 * 2000 ≤ (i 0).val ∧ (i 0).val < (i 0).val / 2000 * 2000 + 2000
    omega
  | ⟨1, _⟩ =>
    show win2_4.index ⟨(i 0).val / 2000, ht⟩ (1 : Fin 2) * 32 ≤ (i 1).val
      ∧ (i 1).val < win2_4.index ⟨(i 0).val / 2000, ht⟩ (1 : Fin 2) * 32 + 32
    rw [e9]; omega

/-- The output array of this product, after the run of its region from the contents V. -/
theorem region2_array (c : Dev nD) :
    (dat2 (F := Ideal) V c).arrAt 4 cfg2.N = layer (n := 32) (V c main_v61) (V c main_v62) (V c main_arg6) (V c main_v63) :=
  (dat2 (F := Ideal) V c).arrAt_eq_of_cover 4 _ (fun t _ => flushed2 V c t) (cover2)

end Cert.KernelIdeal.Blocks

end
-- ==== Proof.KernelValue.lean ====
/-
  The kernel program's result is the network of its arguments.

  The run's boundaries are followed from the launch to the return. Before the first product the host operations leave
  the endpoint lists and the edges' normalisation; the first product leaves x * W1; the next stretch aggregates it and
  lays out the bias row and a zero row; the second product leaves the first layer; the next stretch aggregates that and
  lays out the two bias rows; the third product leaves the second layer, which is the result. Whatever a stretch or a
  product does not write keeps its contents, so each step reads the arguments as launched.
-/
import proofs.«149653_j22290880266463_1_alg».proof.Proof.Gen.KernelIdeal.Frame
import proofs.«149653_j22290880266463_1_alg».proof.Proof.Stretches
import proofs.«149653_j22290880266463_1_alg».proof.Proof.Keeps
import proofs.«149653_j22290880266463_1_alg».proof.Proof.Spec
import proofs.«149653_j22290880266463_1_alg».proof.Proof.Region0
import proofs.«149653_j22290880266463_1_alg».proof.Proof.Region1
import proofs.«149653_j22290880266463_1_alg».proof.Proof.Region2

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Stretches Cert.KernelIdeal.Spec Cert.KernelIdeal.Blocks

variable (m : (ℓ : Loc nD τ sig) → Buf (Elt Ideal) ℓ) (ρ : Dev nD → PrngReg) (c : Dev nD)

/-! ## Up to the first product -/

/-- A buffer the first stretch does not write holds its launch contents when the first product starts. -/
theorem entry0_kept {r : Ref sig .tc} (h0 : r ∉ written0) (h1 : r ∉ written0_1) (h2 : r ∉ written0_2) :
    W3 m ρ c (Proc.devRef .tc r) = m ((c : Thread nD τ).loc r) :=
  (keeps0_2 (W2 m ρ c) h2).trans ((keeps0_1 (W1 m ρ c) h1).trans ((keeps0 (W0 m ρ c) h0).trans rfl))

theorem entry0_src : W3 m ρ c (Proc.devRef .tc main_v3) = srcOf (m ((c : Thread nD τ).loc main_arg1)) :=
  (keeps0_2 (W2 m ρ c) (by decide)).trans ((keeps0_1 (W1 m ρ c) (by decide)).trans (part0_src (W0 m ρ c)))

theorem entry0_dst : W3 m ρ c (Proc.devRef .tc main_v6) = dstOf (m ((c : Thread nD τ).loc main_arg1)) :=
  (keeps0_2 (W2 m ρ c) (by decide)).trans ((keeps0_1 (W1 m ρ c) (by decide)).trans (part0_dst (W0 m ρ c)))

/-- The per-node factor after the selection. -/
theorem mid0_dis : W2 m ρ c (Proc.devRef .tc main_v16) = disOf (dstOf (m ((c : Thread nD τ).loc main_arg1))) :=
  (part1_dis (W1 m ρ c)).trans
    (congr (congr (congrArg select (part0_pos (W0 m ρ c))) (part0_rsqrt (W0 m ρ c)))
      (congrArg (broadcastInDim S50000 ![] bcast_S_S50000) (part0_zero (W0 m ρ c))))

theorem entry0_nrm : W3 m ρ c (Proc.devRef .tc main_v31) = nrmOf (m ((c : Thread nD τ).loc main_arg1)) :=
  (part2_norm (W2 m ρ c)).trans
    (congr (congr (congrArg normOf (mid0_dis m ρ c))
        ((keeps0_1 (W1 m ρ c) (by decide)).trans (part0_src (W0 m ρ c))))
      ((keeps0_1 (W1 m ρ c) (by decide)).trans (part0_dst (W0 m ρ c))))

/-! ## The first product and the stretch after it -/

theorem exit0_prod : W4 m ρ c (Proc.devRef .tc main_v32)
    = rowsTimes (n := 128) (m ((c : Thread nD τ).loc main_arg0)) (m ((c : Thread nD τ).loc main_arg2)) :=
  (W4_arr m ρ c 2).trans ((region0_array (V3 m ρ) c).trans
    (congr (congrArg (rowsTimes (n := 128)) (entry0_kept m ρ c (r := main_arg0) (by decide) (by decide) (by decide)))
      (entry0_kept m ρ c (r := main_arg2) (by decide) (by decide) (by decide))))

/-- A buffer neither the first stretch nor the first product writes holds its launch contents after that product. -/
theorem exit0_kept {r : Ref sig .tc} (h0 : r ∉ written0) (h1 : r ∉ written0_1) (h2 : r ∉ written0_2)
    (hr : ∀ w, Pipeline.arrRef spec0 w ≠ r) : W4 m ρ c (Proc.devRef .tc r) = m ((c : Thread nD τ).loc r) :=
  (W4_of_ne m ρ c r hr).trans (entry0_kept m ρ c h0 h1 h2)

theorem exit0_src : W4 m ρ c (Proc.devRef .tc main_v3) = srcOf (m ((c : Thread nD τ).loc main_arg1)) :=
  (W4_of_ne m ρ c main_v3 (by decide)).trans (entry0_src m ρ c)
theorem exit0_dst : W4 m ρ c (Proc.devRef .tc main_v6) = dstOf (m ((c : Thread nD τ).loc main_arg1)) :=
  (W4_of_ne m ρ c main_v6 (by decide)).trans (entry0_dst m ρ c)
theorem exit0_nrm : W4 m ρ c (Proc.devRef .tc main_v31) = nrmOf (m ((c : Thread nD τ).loc main_arg1)) :=
  (W4_of_ne m ρ c main_v31 (by decide)).trans (entry0_nrm m ρ c)

/-- The first aggregation. -/
theorem entry1_agg : W5 m ρ c (Proc.devRef .tc main_v45)
    = aggOf (rowsTimes (n := 128) (m ((c : Thread nD τ).loc main_arg0)) (m ((c : Thread nD τ).loc main_arg2)))
        (srcOf (m ((c : Thread nD τ).loc main_arg1))) (dstOf (m ((c : Thread nD τ).loc main_arg1)))
        (nrmOf (m ((c : Thread nD τ).loc main_arg1))) :=
  (mid1_agg (W4 m ρ c)).trans
    (congr (congr (congr (congrArg aggOf (exit0_prod m ρ c)) (exit0_src m ρ c)) (exit0_dst m ρ c)) (exit0_nrm m ρ c))

theorem entry1_bias : W5 m ρ c (Proc.devRef .tc main_v46)
    = shapeCast S1x128 (m ((c : Thread nD τ).loc main_arg3)) shapeCasts_S128_S1x128 :=
  (mid1_bias (W4 m ρ c)).trans
    (congrArg (fun b => shapeCast S1x128 b shapeCasts_S128_S1x128)
      (exit0_kept m ρ c (r := main_arg3) (by decide) (by decide) (by decide) (by decide)))

theorem entry1_zero : W5 m ρ c (Proc.devRef .tc main_v47)
    = broadcastInDim S1x128 ![] bcast_S_S1x128 (constant (F := Ideal) S_ .f32 0x00000000#32) :=
  mid1_zero (W4 m ρ c)

/-- A buffer nothing writes up to the second product holds its launch contents when that product starts. -/
theorem entry1_kept {r : Ref sig .tc} (h0 : r ∉ written0) (h1 : r ∉ written0_1) (h2 : r ∉ written0_2)
    (hr : ∀ w, Pipeline.arrRef spec0 w ≠ r) (h3 : r ∉ written1) : W5 m ρ c (Proc.devRef .tc r) = m ((c : Thread nD τ).loc r) :=
  (keeps1 (W4 m ρ c) h3).trans (exit0_kept m ρ c h0 h1 h2 hr)

/-! ## The second product and the stretch after it -/

theorem exit1_layer : W6 m ρ c (Proc.devRef .tc main_v48)
    = firstLayer (m ((c : Thread nD τ).loc main_arg0)) (m ((c : Thread nD τ).loc main_arg1)) (m ((c : Thread nD τ).loc main_arg2))
        (m ((c : Thread nD τ).loc main_arg3)) (m ((c : Thread nD τ).loc main_arg4)) :=
  (W6_arr m ρ c 4).trans ((region1_array (V5 m ρ) c).trans
    (congr (congr (congr (congrArg (layer (n := 128)) (entry1_agg m ρ c)) (entry1_bias m ρ c))
        (entry1_kept m ρ c (r := main_arg4) (by decide) (by decide) (by decide) (by decide) (by decide)))
      (entry1_zero m ρ c)))

theorem exit1_src : W6 m ρ c (Proc.devRef .tc main_v3) = srcOf (m ((c : Thread nD τ).loc main_arg1)) :=
  (W6_of_ne m ρ c main_v3 (by decide)).trans ((keeps1 (W4 m ρ c) (by decide)).trans (exit0_src m ρ c))
theorem exit1_dst : W6 m ρ c (Proc.devRef .tc main_v6) = dstOf (m ((c : Thread nD τ).loc main_arg1)) :=
  (W6_of_ne m ρ c main_v6 (by decide)).trans ((keeps1 (W4 m ρ c) (by decide)).trans (exit0_dst m ρ c))
theorem exit1_nrm : W6 m ρ c (Proc.devRef .tc main_v31) = nrmOf (m ((c : Thread nD τ).loc main_arg1)) :=
  (W6_of_ne m ρ c main_v31 (by decide)).trans ((keeps1 (W4 m ρ c) (by decide)).trans (exit0_nrm m ρ c))

/-- A buffer nothing writes up to the end of the second product holds its launch contents there. -/
theorem exit1_kept {r : Ref sig .tc} (h0 : r ∉ written0) (h1 : r ∉ written0_1) (h2 : r ∉ written0_2)
    (hr : ∀ w, Pipeline.arrRef spec0 w ≠ r) (h3 : r ∉ written1) (hr' : ∀ w, Pipeline.arrRef spec1 w ≠ r) :
    W6 m ρ c (Proc.devRef .tc r) = m ((c : Thread nD τ).loc r) :=
  (W6_of_ne m ρ c r hr').trans (entry1_kept m ρ c h0 h1 h2 hr h3)

/-- The second aggregation. -/
theorem entry2_agg : W7 m ρ c (Proc.devRef .tc main_v61)
    = aggOf (firstLayer (m ((c : Thread nD τ).loc main_arg0)) (m ((c : Thread nD τ).loc main_arg1)) (m ((c : Thread nD τ).loc main_arg2))
          (m ((c : Thread nD τ).loc main_arg3)) (m ((c : Thread nD τ).loc main_arg4)))
        (srcOf (m ((c : Thread nD τ).loc main_arg1))) (dstOf (m ((c : Thread nD τ).loc main_arg1)))
        (nrmOf (m ((c : Thread nD τ).loc main_arg1))) :=
  (mid2_agg (W6 m ρ c)).trans
    (congr (congr (congr (congrArg aggOf (exit1_layer m ρ c)) (exit1_src m ρ c)) (exit1_dst m ρ c)) (exit1_nrm m ρ c))

theorem entry2_bias : W7 m ρ c (Proc.devRef .tc main_v62)
    = shapeCast S1x128 (m ((c : Thread nD τ).loc main_arg5)) shapeCasts_S128_S1x128 :=
  (mid2_bias (W6 m ρ c)).trans
    (congrArg (fun b => shapeCast S1x128 b shapeCasts_S128_S1x128)
      (exit1_kept m ρ c (r := main_arg5) (by decide) (by decide) (by decide) (by decide) (by decide) (by decide)))

theorem entry2_out_bias : W7 m ρ c (Proc.devRef .tc main_v63)
    = shapeCast S1x32 (m ((c : Thread nD τ).loc main_arg7)) shapeCasts_S32_S1x32 :=
  (mid2_out_bias (W6 m ρ c)).trans
    (congrArg (fun b => shapeCast S1x32 b shapeCasts_S32_S1x32)
      (exit1_kept m ρ c (r := main_arg7) (by decide) (by decide) (by decide) (by decide) (by decide) (by decide)))

theorem entry2_weights : W7 m ρ c (Proc.devRef .tc main_arg6) = m ((c : Thread nD τ).loc main_arg6) :=
  (keeps2 (W6 m ρ c) (by decide)).trans
    (exit1_kept m ρ c (r := main_arg6) (by decide) (by decide) (by decide) (by decide) (by decide) (by decide))

/-! ## The third product: the result -/

/-- The result buffer after the run holds the network of the arguments as launched. -/
theorem result_eq : W8 m ρ c (Proc.devRef .tc main_v64)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W8_arr m ρ c 4).trans ((region2_array (V7 m ρ) c).trans
    (congr (congr (congr (congrArg (layer (n := 32)) (entry2_agg m ρ c)) (entry2_bias m ρ c)) (entry2_weights m ρ c))
      (entry2_out_bias m ρ c)))

end Cert.KernelIdeal.Whole

end
-- ==== Proof.RefSpec.lean ====
/-
  The reference computes the same network.

  Its stages are read one at a time. The endpoint lists, the edges' normalisation (which the reference computes once
  per layer, from the same edge list, so both copies are the same function) and the two aggregations are the shared
  chains applied to the same arrays. Each of its three matrix products is, entry (r, q), the sum over k of the left
  operand at (r, k) times the weights at (k, q); its relu is the maximum with zero; a bias it broadcasts over the rows
  is read at the column. So its first layer is the program's first layer, whose added zero row changes nothing
  (a + 0 = a on the extended reals), and its result is the network.
-/
import proofs.«149653_j22290880266463_1_alg».proof.Proof.RefRead
import proofs.«149653_j22290880266463_1_alg».proof.Proof.Spec
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.ValueIdx
open Cert.KernelIdeal Cert.KernelIdeal.Stretches Cert.KernelIdeal.Spec
open Cert.ReferenceIdeal.ReadP

variable (x0 : FVec Ideal S50000x128 .f32) (x1 : (⟨S2x800000, .i32⟩ : BufTy).Contents (Elt Ideal))
  (x2 : FVec Ideal S128x128 .f32) (x3 : FVec Ideal S128 .f32) (x4 : FVec Ideal S128x128 .f32) (x5 : FVec Ideal S128 .f32)
  (x6 : FVec Ideal S128x32 .f32) (x7 : FVec Ideal S32 .f32)

/-! ## The shared chains -/

theorem ref_src : val_main_v3 (F := Ideal) x1 = srcOf x1 := rfl
theorem ref_dst : val_main_v6 (F := Ideal) x1 = dstOf x1 := rfl
/-- The normalisation the first layer uses. -/
theorem ref_nrm : val_main_v32 (F := Ideal) x1 = nrmOf x1 := rfl
/-- The normalisation the second layer computes again. -/
theorem ref_nrm' : val_main_v75 (F := Ideal) x1 = nrmOf x1 := rfl
theorem ref_agg1 : val_main_v45 (F := Ideal) x0 x1 x2
    = aggOf (val_main_v7 (F := Ideal) x0 x2) (srcOf x1) (dstOf x1) (nrmOf x1) := rfl
theorem ref_agg2 : val_main_v88 (F := Ideal) x0 x1 x2 x3 x4
    = aggOf (val_main_v50 (F := Ideal) x0 x1 x2 x3 x4) (srcOf x1) (dstOf x1) (nrmOf x1) := rfl

/-! ## Where each product and each bias is read -/

theorem lrow_eq {n : Nat} (i : (⟨2, ![50000, n]⟩ : Shape).Idx) (k : Fin 128)
    (l : (⟨2, ![50000, 128]⟩ : Shape).Idx) (h0 : (l 0).val = (i 0).val) (h1 : (l 1).val = k.val) :
    l = ix2 (⟨(i 0).val, (i 0).isLt⟩ : Fin 50000) k :=
  funext fun a => Fin.ext (by match a with | ⟨0, _⟩ => exact h0 | ⟨1, _⟩ => exact h1)

theorem rcol_eq {n : Nat} (i : (⟨2, ![50000, n]⟩ : Shape).Idx) (k : Fin 128)
    (r : (⟨2, ![128, n]⟩ : Shape).Idx) (h0 : (r 0).val = k.val) (h1 : (r 1).val = (i 1).val) :
    r = ix2 k (⟨(i 1).val, (i 1).isLt⟩ : Fin n) :=
  funext fun a => Fin.ext (by match a with | ⟨0, _⟩ => exact h0 | ⟨1, _⟩ => exact h1)

/-- The first layer's bias, broadcast over the rows, is read at the column. -/
theorem bias1_idx (j : (⟨2, ![50000, 128]⟩ : Shape).Idx) (k : Fin 128) (h : (j 1).val = k.val) :
    idx_main_v46 (idx_main_v47 j) = ix1 k :=
  funext fun a => Fin.ext (by match a with | ⟨0, _⟩ => exact h)

/-- So is the second layer's. -/
theorem bias2_idx (j : (⟨2, ![50000, 128]⟩ : Shape).Idx) (k : Fin 128) (h : (j 1).val = k.val) :
    idx_main_v89 (idx_main_v90 j) = ix1 k :=
  funext fun a => Fin.ext (by match a with | ⟨0, _⟩ => exact h)

/-- The first product. -/
theorem ref_prod1 : val_main_v7 (F := Ideal) x0 x2 = rowsTimes (n := 128) x0 x2 := by
  funext i
  rw [val_main_v7_apply]
  unfold rowsTimes
  refine Finset.sum_congr rfl fun k _ => ?_
  rw [lrow_eq i k (lidx_main_v7 i k) rfl rfl, rcol_eq i k (ridx_main_v7 i k) rfl rfl]

/-- A zero row read anywhere is zero. -/
theorem zero_row_apply {n : Nat} (h : Shape.BroadcastsInDim (⟨0, ![]⟩ : Shape) ⟨2, ![1, n]⟩ ![]) (j : (⟨2, ![1, n]⟩ : Shape).Idx) :
    broadcastInDim ⟨2, ![1, n]⟩ ![] h (constant (F := Ideal) ⟨0, ![]⟩ .f32 0x00000000#32) j = 0 := by
  rw [broadcastInDim_apply _ h _ j (fun a => a.elim0) (fun a => a.elim0)]
  exact Ideal.ofBits_zero_f32

/-- The first layer. -/
theorem ref_first_layer : val_main_v50 (F := Ideal) x0 x1 x2 x3 x4 = firstLayer x0 x1 x2 x3 x4 := by
  funext i
  rw [val_main_v50_apply]
  unfold firstLayer layer
  rw [zero_row_apply, add_zero]
  refine Finset.sum_congr rfl fun k _ => ?_
  rw [val_main_v49_apply]
  rw [val_main_v48_apply]
  rw [val_main_v47_apply]
  rw [val_main_v46_apply]
  rw [val_main_call1_v0_apply]
  rw [val_main_call1_cst_apply]
  rw [ref_agg1]
  rw [ref_prod1]
  rw [shapeCast_a_1a_apply]
  rw [lrow_eq i k (lidx_main_v50 i k) rfl rfl]
  rw [rcol_eq i k (ridx_main_v50 i k) rfl rfl]
  rw [bias1_idx (ix2 (⟨(i 0).val, (i 0).isLt⟩ : Fin 50000) k) k rfl]
  simp only [Ideal.maximumf_def, Ideal.addf_def, Ideal.ofBits_def]

/-- The result. -/
theorem ref_out : val_main_v96 (F := Ideal) x0 x1 x2 x3 x4 x5 x6 x7 = gcn x0 x1 x2 x3 x4 x5 x6 x7 := by
  funext i
  rw [val_main_v96_apply, val_main_v93_apply, val_main_v95_apply, val_main_v94_apply]
  unfold gcn layer
  rw [Ideal.addf_def]
  refine congr (congrArg HAdd.hAdd (Finset.sum_congr rfl fun k _ => ?_)) ?_
  · rw [val_main_v92_apply]
    rw [val_main_v91_apply]
    rw [val_main_v90_apply]
    rw [val_main_v89_apply]
    rw [val_main_call3_v0_apply]
    rw [val_main_call3_cst_apply]
    rw [ref_agg2]
    rw [ref_first_layer]
    rw [shapeCast_a_1a_apply]
    rw [lrow_eq i k (lidx_main_v93 i k) rfl rfl]
    rw [rcol_eq i k (ridx_main_v93 i k) rfl rfl]
    rw [bias2_idx (ix2 (⟨(i 0).val, (i 0).isLt⟩ : Fin 50000) k) k rfl]
    simp only [Ideal.maximumf_def, Ideal.addf_def, Ideal.ofBits_def]
  · rw [shapeCast_a_1a_apply]
    exact congrArg x7 (funext fun a => by match a with | ⟨0, _⟩ => rfl)

end Cert.ReferenceIdeal.RefValue

end
-- ==== Proof.lean ====
/-
  A two-layer graph convolution with a linear classifier, as three pipelined matrix products among host operations,
  against its plain reference: on the extended reals the two programs compute the same function of their arguments.

  Both build the same endpoint lists and the same degree normalisation from the edge list, and aggregate with the same
  gather, scale and scatter-add; they differ in how the three matrix products are carried out and in where the biases
  are added. A product taken 2000 rows at a time is the product of the whole arrays, because a row of a product depends
  only on that row of the left operand; the reference's relu (aggregate + bias) followed by a product is the program's
  product of the clamped, biased block; and the row of zeros the program adds after its second product changes nothing,
  since a + 0 = a for every extended real. No step divides, cancels or distributes, so the finiteness of the inputs is
  never used. The program's idealization rewrote no operation, so that conjunct is trivial; the three frames are the
  runs themselves with the result dropped.
-/
import proofs.«149653_j22290880266463_1_alg».proof.Defs
import proofs.«149653_j22290880266463_1_alg».proof.Proof.Gen.Kernel
import proofs.«149653_j22290880266463_1_alg».proof.Proof.Gen.Kernel.Skeleton
import proofs.«149653_j22290880266463_1_alg».proof.Proof.Gen.Kernel.Launch
import proofs.«149653_j22290880266463_1_alg».proof.Proof.Gen.Kernel.Points
import proofs.«149653_j22290880266463_1_alg».proof.Proof.Gen.Kernel.Frame
import proofs.«149653_j22290880266463_1_alg».proof.Proof.Gen.KernelIdeal
import proofs.«149653_j22290880266463_1_alg».proof.Proof.Gen.KernelIdeal.Skeleton
import proofs.«149653_j22290880266463_1_alg».proof.Proof.Gen.KernelIdeal.Launch
import proofs.«149653_j22290880266463_1_alg».proof.Proof.Gen.KernelIdeal.Points
import proofs.«149653_j22290880266463_1_alg».proof.Proof.Gen.KernelIdeal.Frame
import proofs.«149653_j22290880266463_1_alg».proof.Proof.Gen.ReferenceIdeal
import proofs.«149653_j22290880266463_1_alg».proof.Proof.Gen.Pre_finite_inputs
import proofs.«149653_j22290880266463_1_alg».proof.Proof.KernelRun
import proofs.«149653_j22290880266463_1_alg».proof.Proof.KernelValue
import proofs.«149653_j22290880266463_1_alg».proof.Proof.RefRun
import proofs.«149653_j22290880266463_1_alg».proof.Proof.RefRead
import proofs.«149653_j22290880266463_1_alg».proof.Proof.RefSpec
import Idealize.ShloMosaic.Adequacy
import Idealize.ShloMosaic.Init

noncomputable section

namespace Cert.Proof

open Idealize.ShloMosaic Idealize.ShloMosaic.TcCoe Idealize.SL.Sem

/-- The program as printed runs and leaves its arguments alone. -/
theorem frame_kernel : @Cert.frame_Kernel Cert.Kernel.Gen.facts Cert.Pre_finite_inputs.Gen.facts :=
  fun m ρ _ => Cert.Kernel.Gen.frame m ρ

/-- So does its idealization. -/
theorem frame_kernel_ideal : @Cert.frame_KernelIdeal Cert.KernelIdeal.Gen.facts Cert.Pre_finite_inputs.Gen.facts :=
  fun m ρ _ => Cert.KernelIdeal.Gen.frame m ρ

/-- The reference's run with the result dropped. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- The idealization rewrote nothing. -/
theorem preserves : Cert.preserves_Kernel_KernelIdeal := trivial

/-- Both programs end at the network of the arguments: the program by following its run's boundaries, the reference
    by reading its stages; the arguments agree by hypothesis. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.result_eq m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v96_eq, Cert.ReferenceIdeal.RefValue.ref_out, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
